-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v33) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000 : Shape := ⟨1, ![500000]⟩
abbrev S128x128 : Shape := ⟨2, ![128, 128]⟩
abbrev S_ : Shape := ⟨0, ![]⟩

class Facts : Prop where
  bcast_S_S500000 : S_.BroadcastsInDim S500000 (![] : Fin 0 → Fin S500000.rank)
  reducesTo_S500000_S_d0 : S500000.ReducesTo [0] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S500000 .f32) (main_arg1 : FVec F S500000 .f32) (main_arg2 : FVec F S128x128 .f32) : IVec S_ 1 :=
  let main_v0 : FVec F S500000 .f32 := Host.absf main_arg0
  let main_cst : FVec F S_ .f32 := constant S_ .f32 0x7F800000#32
  let main_v1 : FVec F S500000 .f32 := broadcastInDim S500000 ![] bcast_S_S500000 main_cst
  let main_v2 : IVec S500000 1 := cmpf .olt main_v0 main_v1
  let main_c : IVec S_ 1 := constantI S_ 1 1#1
  let main_v3 : IVec S_ 1 := (fun x v => Host.reduce IntOp.andi x v reducesTo_S500000_S_d0 h_S_) main_v2 main_c
  let main_v4 : FVec F S500000 .f32 := Host.absf main_arg1
  let main_cst_0 : FVec F S_ .f32 := constant S_ .f32 0x7F800000#32
  let main_v5 : FVec F S500000 .f32 := broadcastInDim S500000 ![] bcast_S_S500000 main_cst_0
  let main_v6 : IVec S500000 1 := cmpf .olt main_v4 main_v5
  let main_c_1 : IVec S_ 1 := constantI S_ 1 1#1
  let main_v7 : IVec S_ 1 := (fun x v => Host.reduce IntOp.andi x v reducesTo_S500000_S_d0 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S500000 : Shape := ⟨1, ![500000]⟩
abbrev S128x128 : Shape := ⟨2, ![128, 128]⟩
abbrev S499968 : Shape := ⟨1, ![499968]⟩
abbrev S7812x64 : Shape := ⟨2, ![7812, 64]⟩
abbrev S7811x64 : Shape := ⟨2, ![7811, 64]⟩
abbrev S7811x128 : Shape := ⟨2, ![7811, 128]⟩
abbrev S7811x128x1 : Shape := ⟨3, ![7811, 128, 1]⟩
abbrev S7811x128x2 : Shape := ⟨3, ![7811, 128, 2]⟩
abbrev S128 : Shape := ⟨1, ![128]⟩
abbrev S128x1 : Shape := ⟨2, ![128, 1]⟩
abbrev S1x128 : Shape := ⟨2, ![1, 128]⟩
abbrev S_ : Shape := ⟨0, ![]⟩
abbrev S7811x128x128 : Shape := ⟨3, ![7811, 128, 128]⟩
abbrev S256x128x128 : Shape := ⟨3, ![256, 128, 128]⟩
abbrev S1x128x128 : Shape := ⟨3, ![1, 128, 128]⟩

abbrev nBuf : Space → Nat
  | .hbm => 41
  | .vmem => 3
  | .smem => 0
  | _ => 0

abbrev bufTy : (tb : Table) → Fin (tcTables nBuf tb) → BufTy
  | .hbm, ⟨0, _⟩ => ⟨S500000, .f32⟩
  | .hbm, ⟨1, _⟩ => ⟨S500000, .f32⟩
  | .hbm, ⟨2, _⟩ => ⟨S128x128, .f32⟩
  | .hbm, ⟨3, _⟩ => ⟨S499968, .f32⟩
  | .hbm, ⟨4, _⟩ => ⟨S7812x64, .f32⟩
  | .hbm, ⟨5, _⟩ => ⟨S7811x64, .f32⟩
  | .hbm, ⟨6, _⟩ => ⟨S7811x64, .f32⟩
  | .hbm, ⟨7, _⟩ => ⟨S7811x128, .f32⟩
  | .hbm, ⟨8, _⟩ => ⟨S499968, .f32⟩
  | .hbm, ⟨9, _⟩ => ⟨S7812x64, .f32⟩
  | .hbm, ⟨10, _⟩ => ⟨S7811x64, .f32⟩
  | .hbm, ⟨11, _⟩ => ⟨S7811x64, .f32⟩
  | .hbm, ⟨12, _⟩ => ⟨S7811x128, .f32⟩
  | .hbm, ⟨13, _⟩ => ⟨S7811x128x1, .f32⟩
  | .hbm, ⟨14, _⟩ => ⟨S7811x128x1, .f32⟩
  | .hbm, ⟨15, _⟩ => ⟨S7811x128x2, .f32⟩
  | .hbm, ⟨16, _⟩ => ⟨S128, .i32⟩
  | .hbm, ⟨17, _⟩ => ⟨S128x1, .i32⟩
  | .hbm, ⟨18, _⟩ => ⟨S1x128, .i32⟩
  | .hbm, ⟨19, _⟩ => ⟨S128x128, .i32⟩
  | .hbm, ⟨20, _⟩ => ⟨S128x128, .i32⟩
  | .hbm, ⟨21, _⟩ => ⟨S128x128, .i32⟩
  | .hbm, ⟨22, _⟩ => ⟨S128x128, .i32⟩
  | .hbm, ⟨23, _⟩ => ⟨S_, .i32⟩
  | .hbm, ⟨24, _⟩ => ⟨S128x128, .i32⟩
  | .hbm, ⟨25, _⟩ => ⟨S128x128, .i1⟩
  | .hbm, ⟨26, _⟩ => ⟨S_, .i32⟩
  | .hbm, ⟨27, _⟩ => ⟨S128x128, .i32⟩
  | .hbm, ⟨28, _⟩ => ⟨S128x128, .i1⟩
  | .hbm, ⟨29, _⟩ => ⟨S128x128, .i1⟩
  | .hbm, ⟨30, _⟩ => ⟨S128x128, .f32⟩
  | .hbm, ⟨31, _⟩ => ⟨S128x128, .f32⟩
  | .hbm, ⟨32, _⟩ => ⟨S128x128, .f32⟩
  | .hbm, ⟨33, _⟩ => ⟨S_, .f32⟩
  | .hbm, ⟨34, _⟩ => ⟨S128x128, .f32⟩
  | .hbm, ⟨35, _⟩ => ⟨S128x128, .f32⟩
  | .hbm, ⟨36, _⟩ => ⟨S_, .f32⟩
  | .hbm, ⟨37, _⟩ => ⟨S128x128, .f32⟩
  | .hbm, ⟨38, _⟩ => ⟨S128x128, .f32⟩
  | .hbm, ⟨39, _⟩ => ⟨S128x128, .f32⟩
  | .hbm, ⟨40, _⟩ => ⟨S7811x128x128, .f32⟩
  | .local _ .vmem, ⟨0, _⟩ => ⟨S128x128, .f32⟩
  | .local _ .vmem, ⟨1, _⟩ => ⟨S256x128x128, .f32⟩
  | .local _ .vmem, ⟨2, _⟩ => ⟨S256x128x128, .f32⟩
  | _, _ => ⟨S500000, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_c : Ref sig .tc := ⟨.hbm, 23, rfl⟩
abbrev main_v20 : Ref sig .tc := ⟨.hbm, 24, rfl⟩
abbrev main_v21 : Ref sig .tc := ⟨.hbm, 25, rfl⟩
abbrev main_c_0 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst : Ref sig .tc := ⟨.hbm, 33, rfl⟩
abbrev main_v28 : Ref sig .tc := ⟨.hbm, 34, rfl⟩
abbrev main_v29 : Ref sig .tc := ⟨.hbm, 35, rfl⟩
abbrev main_cst_1 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![31], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  slices_S500000_S499968_0 : S500000.Slices ![0] S499968
  shapeCasts_S499968_S7812x64 : S499968.ShapeCasts S7812x64
  slices_S7812x64_S7811x64_0_0 : S7812x64.Slices ![0, 0] S7811x64
  slices_S7812x64_S7811x64_1_0 : S7812x64.Slices ![1, 0] S7811x64
  concatenates_S7811x64_S7811x64_S7811x128_d1 : Shape.Concatenates [S7811x64, S7811x64] S7811x128 1
  bcast_S7811x128_S7811x128x1_0_1 : S7811x128.BroadcastsInDim S7811x128x1 (![0, 1] : Fin 2 → Fin S7811x128x1.rank)
  concatenates_S7811x128x1_S7811x128x1_S7811x128x2_d2 : Shape.Concatenates [S7811x128x1, S7811x128x1] S7811x128x2 2
  bcast_S128_S128x1_0 : S128.BroadcastsInDim S128x1 (![0] : Fin 1 → Fin S128x1.rank)
  bcast_S128_S1x128_1 : S128.BroadcastsInDim S1x128 (![1] : Fin 1 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S_S128x128 : S_.BroadcastsInDim S128x128 (![] : Fin 0 → Fin S128x128.rank)
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128x128_S1x128x128 : S128x128.ShapeCasts S1x128x128
  shapeCasts_S1x128x128_S1x128x128 : S1x128x128.ShapeCasts S1x128x128
  broadcasts_S1x128x128_S256x128x128 : S1x128x128.Broadcasts S256x128x128
  inb_S256x128x128_S256x128x128_0_0_0 : ∀ a, (![0, 0, 0] : Fin 3 → Nat) a + S256x128x128.size a ≤ S256x128x128.size a
  h_S256x128x128 : 0 < S256x128x128.numel
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S128x128.size a
  hwx0_0 : ∀ i : grid0.Coords, EltTy.bits .f32 = 32 ∨ (Rect.block (s := S128x128) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S256x128x128.size a < S7811x128x128.size a
  hwx0_1 : ∀ i : grid0.Coords, EltTy.bits .f32 = 32 ∨ (Rect.unit (s := S7811x128x128) (fun a => cc0_transform_1 i a * S256x128x128.size a) (fun a => (Pipeline.Clip.of (cc0_transform_1 i a) (S256x128x128.size a) (S7811x128x128.size a)).extent (S256x128x128.size a)) fun a => Pipeline.Clip.inb (Pipeline.Clip.ok_of (hstart0_1 i a))).WholeWords (EltTy.packing .f32)
  hwxs0_1 : ∀ i : grid0.Coords, EltTy.bits .f32 = 32 ∨ (Rect.unit (s := S256x128x128) (fun _ => 0) (fun a => (Pipeline.Clip.of (cc0_transform_1 i a) (S256x128x128.size a) (S7811x128x128.size a)).extent (S256x128x128.size a)) fun a => (Nat.zero_add _).trans_le (Pipeline.Clip.extent_le (Pipeline.Clip.ok_of (hstart0_1 i a)))).WholeWords (EltTy.packing .f32)

variable [Facts₀]

abbrev win0_0 : Pipeline.Window sig grid0 :=
  Pipeline.Window.ofSpec (Memref.whole main_v32) S128x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_v33) S256x128x128.size cc0_transform_1 reads0_1 true false 2 stage0_1 sem0_1
    hrank0 hreads0_1 hstart0_1 nbuf0_1 (Memref.isWhole_whole _) hwx0_1 hwxs0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S500000 : Shape := ⟨1, ![500000]⟩
abbrev S128x128 : Shape := ⟨2, ![128, 128]⟩
abbrev S7811 : Shape := ⟨1, ![7811]⟩
abbrev S7811x1 : Shape := ⟨2, ![7811, 1]⟩
abbrev S_ : Shape := ⟨0, ![]⟩
abbrev S128 : Shape := ⟨1, ![128]⟩
abbrev S1x128 : Shape := ⟨2, ![1, 128]⟩
abbrev S7811x128 : Shape := ⟨2, ![7811, 128]⟩
abbrev S7811x128x1 : Shape := ⟨3, ![7811, 128, 1]⟩
abbrev S7811x128x2 : Shape := ⟨3, ![7811, 128, 2]⟩
abbrev S128x1 : Shape := ⟨2, ![128, 1]⟩
abbrev S7811x128x128 : Shape := ⟨3, ![7811, 128, 128]⟩

abbrev nBuf : Space → Nat
  | .hbm => 59
  | .vmem => 0
  | .smem => 0
  | _ => 0

abbrev bufTy : (tb : Table) → Fin (tcTables nBuf tb) → BufTy
  | .hbm, ⟨0, _⟩ => ⟨S500000, .f32⟩
  | .hbm, ⟨1, _⟩ => ⟨S500000, .f32⟩
  | .hbm, ⟨2, _⟩ => ⟨S128x128, .f32⟩
  | .hbm, ⟨3, _⟩ => ⟨S7811, .i32⟩
  | .hbm, ⟨4, _⟩ => ⟨S7811x1, .i32⟩
  | .hbm, ⟨5, _⟩ => ⟨S_, .i32⟩
  | .hbm, ⟨6, _⟩ => ⟨S7811x1, .i32⟩
  | .hbm, ⟨7, _⟩ => ⟨S7811x1, .i32⟩
  | .hbm, ⟨8, _⟩ => ⟨S128, .i32⟩
  | .hbm, ⟨9, _⟩ => ⟨S1x128, .i32⟩
  | .hbm, ⟨10, _⟩ => ⟨S7811x128, .i32⟩
  | .hbm, ⟨11, _⟩ => ⟨S7811x128, .i32⟩
  | .hbm, ⟨12, _⟩ => ⟨S7811x128, .i32⟩
  | .hbm, ⟨13, _⟩ => ⟨S_, .i32⟩
  | .hbm, ⟨14, _⟩ => ⟨S7811x128, .i32⟩
  | .hbm, ⟨15, _⟩ => ⟨S7811x128, .i1⟩
  | .hbm, ⟨16, _⟩ => ⟨S_, .i32⟩
  | .hbm, ⟨17, _⟩ => ⟨S7811x128, .i32⟩
  | .hbm, ⟨18, _⟩ => ⟨S7811x128, .i32⟩
  | .hbm, ⟨19, _⟩ => ⟨S7811x128, .i32⟩
  | .hbm, ⟨20, _⟩ => ⟨S7811x128x1, .i32⟩
  | .hbm, ⟨21, _⟩ => ⟨S7811x128, .f32⟩
  | .hbm, ⟨22, _⟩ => ⟨S_, .i32⟩
  | .hbm, ⟨23, _⟩ => ⟨S7811x128, .i32⟩
  | .hbm, ⟨24, _⟩ => ⟨S7811x128, .i1⟩
  | .hbm, ⟨25, _⟩ => ⟨S_, .i32⟩
  | .hbm, ⟨26, _⟩ => ⟨S7811x128, .i32⟩
  | .hbm, ⟨27, _⟩ => ⟨S7811x128, .i32⟩
  | .hbm, ⟨28, _⟩ => ⟨S7811x128, .i32⟩
  | .hbm, ⟨29, _⟩ => ⟨S7811x128x1, .i32⟩
  | .hbm, ⟨30, _⟩ => ⟨S7811x128, .f32⟩
  | .hbm, ⟨31, _⟩ => ⟨S7811x128x1, .f32⟩
  | .hbm, ⟨32, _⟩ => ⟨S7811x128x1, .f32⟩
  | .hbm, ⟨33, _⟩ => ⟨S7811x128x2, .f32⟩
  | .hbm, ⟨34, _⟩ => ⟨S128, .i32⟩
  | .hbm, ⟨35, _⟩ => ⟨S128x1, .i32⟩
  | .hbm, ⟨36, _⟩ => ⟨S1x128, .i32⟩
  | .hbm, ⟨37, _⟩ => ⟨S128x128, .i32⟩
  | .hbm, ⟨38, _⟩ => ⟨S128x128, .i32⟩
  | .hbm, ⟨39, _⟩ => ⟨S128x128, .i32⟩
  | .hbm, ⟨40, _⟩ => ⟨S128x128, .i32⟩
  | .hbm, ⟨41, _⟩ => ⟨S_, .i32⟩
  | .hbm, ⟨42, _⟩ => ⟨S128x128, .i32⟩
  | .hbm, ⟨43, _⟩ => ⟨S128x128, .i1⟩
  | .hbm, ⟨44, _⟩ => ⟨S_, .i32⟩
  | .hbm, ⟨45, _⟩ => ⟨S128x128, .i32⟩
  | .hbm, ⟨46, _⟩ => ⟨S128x128, .i1⟩
  | .hbm, ⟨47, _⟩ => ⟨S128x128, .i1⟩
  | .hbm, ⟨48, _⟩ => ⟨S128x128, .f32⟩
  | .hbm, ⟨49, _⟩ => ⟨S128x128, .f32⟩
  | .hbm, ⟨50, _⟩ => ⟨S128x128, .f32⟩
  | .hbm, ⟨51, _⟩ => ⟨S_, .f32⟩
  | .hbm, ⟨52, _⟩ => ⟨S128x128, .f32⟩
  | .hbm, ⟨53, _⟩ => ⟨S128x128, .f32⟩
  | .hbm, ⟨54, _⟩ => ⟨S_, .f32⟩
  | .hbm, ⟨55, _⟩ => ⟨S128x128, .f32⟩
  | .hbm, ⟨56, _⟩ => ⟨S128x128, .f32⟩
  | .hbm, ⟨57, _⟩ => ⟨S128x128, .f32⟩
  | .hbm, ⟨58, _⟩ => ⟨S7811x128x128, .f32⟩
  | _, _ => ⟨S500000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_2 : Ref sig .tc := ⟨.hbm, 22, rfl⟩
abbrev main_v16 : Ref sig .tc := ⟨.hbm, 23, rfl⟩
abbrev main_v17 : Ref sig .tc := ⟨.hbm, 24, rfl⟩
abbrev main_c_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_c_4 : Ref sig .tc := ⟨.hbm, 41, rfl⟩
abbrev main_v33 : Ref sig .tc := ⟨.hbm, 42, rfl⟩
abbrev main_v34 : Ref sig .tc := ⟨.hbm, 43, rfl⟩
abbrev main_c_5 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst : Ref sig .tc := ⟨.hbm, 51, rfl⟩
abbrev main_v41 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩

abbrev nD : Nat := 1
abbrev τ : Topo := Topo.v7x

variable {F : FTy → Type} [FloatOps F]

class Facts₀ : Prop where
  bcast_S7811_S7811x1_0 : S7811.BroadcastsInDim S7811x1 (![0] : Fin 1 → Fin S7811x1.rank)
  bcast_S_S7811x1 : S_.BroadcastsInDim S7811x1 (![] : Fin 0 → Fin S7811x1.rank)
  bcast_S128_S1x128_1 : S128.BroadcastsInDim S1x128 (![1] : Fin 1 → Fin S1x128.rank)
  bcast_S7811x1_S7811x128_0_1 : S7811x1.BroadcastsInDim S7811x128 (![0, 1] : Fin 2 → Fin S7811x128.rank)
  bcast_S1x128_S7811x128_0_1 : S1x128.BroadcastsInDim S7811x128 (![0, 1] : Fin 2 → Fin S7811x128.rank)
  bcast_S_S7811x128 : S_.BroadcastsInDim S7811x128 (![] : Fin 0 → Fin S7811x128.rank)
  bcast_S7811x128_S7811x128x1_0_1 : S7811x128.BroadcastsInDim S7811x128x1 (![0, 1] : Fin 2 → Fin S7811x128x1.rank)
  concatenates_S7811x128x1_S7811x128x1_S7811x128x2_d2 : Shape.Concatenates [S7811x128x1, S7811x128x1] S7811x128x2 2
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S_S128x128 : S_.BroadcastsInDim S128x128 (![] : Fin 0 → Fin S128x128.rank)
  bcast_S128x128_S7811x128x128_1_2 : S128x128.BroadcastsInDim S7811x128x128 (![1, 2] : Fin 2 → Fin S7811x128x128.rank)
  gather_S500000_S7811x128x1_S7811x128_n_0_n_n_0_2_1_wf : GatherDims.WF S500000 S7811x128x1 S7811x128 [] [0] [] [0] [] 2 ![1]

variable [Facts₀]

def gather_S500000_S7811x128x1_S7811x128_n_0_n_n_0_2_1 : GatherDims S500000 S7811x128x1 S7811x128 where
  offsetDims := []
  collapsedSliceDims := [0]
  operandBatchingDims := []
  startIndicesBatchingDims := []
  startIndexMap := [0]
  indexVectorDim := 2
  sliceSizes := ![1]
  wf := gather_S500000_S7811x128x1_S7811x128_n_0_n_n_0_2_1_wf

class Facts : Prop extends Facts₀ where

variable [Facts]
-- ==== Proof.PatchSpec.lean ====
/-
  The two result arrays as functions of the argument arrays, index by index, and the integer arithmetic
  behind the patch offsets. No program is imported here.

  PATCHES. A signal of 500000 samples is cut into patches of 128 consecutive samples, a new patch starting every
  64 samples: patch `p` is samples `64 p` … `64 p + 127`, and there are 7811 of them (the last ends at sample
  `64 · 7810 + 127 = 499967`). The first result stacks the patches of two signals on a last axis of extent 2:
  entry `(p, t, 0)` is sample `64 p + t` of the first signal, entry `(p, t, 1)` that sample of the second.

  ROWS. The second result repeats one 128 × 128 tile along a new leading axis of extent 7811: entry `(p, i, j)`
  is the tile's entry `(i, j)`, whatever the tile is.

  THE START WORD. One of the two programs finds sample `64 p + t` by computing that number as a 32-bit
  two's-complement word (`p · 64 + t`), adding 500000 to it if it reads negative (the wrap-around of a negative index)
  and clamping the result, read signed, into `[0, 499999]`. Since `64 p + t ≤ 499967 < 2³¹` nothing wraps, the word
  is never negative and the clamp does nothing: the number read back is `64 p + t`.
-/
import Idealize.ShloMosaic.Lib.ValueIdx

noncomputable section

namespace Cert.PatchSpec

open Idealize.ShloMosaic Idealize.ShloMosaic.ValueIdx

/-! ## The two results -/

/-- The sample that patch `p` holds at position `t`: sample `64 p + t` of the signal. -/
def sample (p : Fin 7811) (t : Fin 128) : Fin 500000 :=
  ⟨64 * p.val + t.val, by have := p.isLt; have := t.isLt; omega⟩

theorem sample_val (p : Fin 7811) (t : Fin 128) : (sample p t).val = 64 * p.val + t.val := rfl

/-- The stacked patches of two signals: entry `(p, t, s)` is sample `64 p + t` of signal `s`. -/
def patches {α : Type} (x0 x1 : (⟨1, ![500000]⟩ : Shape).Idx → α) : (⟨3, ![7811, 128, 2]⟩ : Shape).Idx → α :=
  fun i => if (i 2).val = 0 then x0 (ix1 (sample (i 0) (i 1))) else x1 (ix1 (sample (i 0) (i 1)))

theorem patches_zero {α : Type} (x0 x1 : (⟨1, ![500000]⟩ : Shape).Idx → α) (p : Fin 7811) (t : Fin 128) :
    patches x0 x1 (ix3 p t (0 : Fin 2)) = x0 (ix1 (sample p t)) := rfl

theorem patches_one {α : Type} (x0 x1 : (⟨1, ![500000]⟩ : Shape).Idx → α) (p : Fin 7811) (t : Fin 128) :
    patches x0 x1 (ix3 p t (1 : Fin 2)) = x1 (ix1 (sample p t)) := rfl

/-- One tile repeated along a new leading axis: entry `(p, i, j)` is the tile's `(i, j)`. -/
def rows {α : Type} (T : (⟨2, ![128, 128]⟩ : Shape).Idx → α) : (⟨3, ![7811, 128, 128]⟩ : Shape).Idx → α :=
  fun i => T (ix2 (i 1) (i 2))

theorem rows_apply {α : Type} (T : (⟨2, ![128, 128]⟩ : Shape).Idx → α) (p : Fin 7811) (i j : Fin 128) :
    rows T (ix3 p i j) = T (ix2 i j) := rfl

/-! ## The start word -/

/-- The number `64 p + t` as the program computes it: the 32-bit word `p · 64 + t`. -/
def startWord (p : Fin 7811) (t : Fin 128) : BitVec 32 :=
  IntOp.addi (IntOp.muli (BitVec.ofNat 32 p.val) 64#32) (BitVec.ofNat 32 t.val)

/-- No wrap: as a natural number the word is `64 p + t`. -/
theorem startWord_toNat (p : Fin 7811) (t : Fin 128) : (startWord p t).toNat = 64 * p.val + t.val := by
  have hp := p.isLt
  have ht := t.isLt
  unfold startWord IntOp.addi IntOp.muli
  rw [BitVec.toNat_add, BitVec.toNat_mul, BitVec.toNat_ofNat, BitVec.toNat_ofNat, BitVec.toNat_ofNat]
  omega

/-- It is below `2³¹`, so read signed it is the same number … -/
theorem startWord_toInt (p : Fin 7811) (t : Fin 128) : (startWord p t).toInt = ((64 * p.val + t.val : Nat) : Int) := by
  have hp := p.isLt
  have ht := t.isLt
  rw [BitVec.toInt_eq_toNat_cond, startWord_toNat]
  rw [if_pos (by omega)]

/-- … and it is not negative: the comparison "below zero" answers the bit `0`. -/
theorem startWord_not_neg (p : Fin 7811) (t : Fin 128) : IntOp.cmpi .slt (startWord p t) 0#32 = 0#1 := by
  have h : (startWord p t).slt 0#32 = false := by
    rw [BitVec.slt, startWord_toInt]
    simp
    omega
  unfold IntOp.cmpi
  show BitVec.ofBool ((startWord p t).slt 0#32) = 0#1
  rw [h]
  rfl

/-- THE START INDEX READ BACK: wrapped if negative, read signed and clamped into `[0, 499999]`, the word is the
    sample number `64 p + t`. -/
theorem clamped_start (p : Fin 7811) (t : Fin 128) :
    min (Scalar.select (IntOp.cmpi .slt (startWord p t) 0#32) (IntOp.addi (startWord p t) 500000#32) (startWord p t)).toInt.toNat
      (500000 - 1) = (sample p t).val := by
  have hp := p.isLt
  have ht := t.isLt
  rw [startWord_not_neg, select_zero, startWord_toInt, Int.toNat_natCast, sample_val]
  omega

end Cert.PatchSpec

end
-- ==== Proof.RefPatches.lean ====
/-
  The reference's first result is the stacked patches of the two signals.

  The reference builds the array of sample numbers `64 p + t` as 32-bit words (a column of `p · 64` plus a row of
  `t`), wraps the negative ones (there are none), and gathers each signal at those numbers; the two gathered
  `[7811, 128]` arrays get a last axis of extent 1 and are joined along it. Read at `(p, t, s)`: the join picks
  signal `s`'s gathered array, whose entry `(p, t)` is the signal at the start index read signed and clamped into
  `[0, 499999]` — which is sample `64 p + t`, since that number is below 500000 and below `2³¹`.
-/
import proofs.«160759_j90082644066743_2_alg».proof.Proof.Gen.ReferenceIdeal.Read
import proofs.«160759_j90082644066743_2_alg».proof.Proof.PatchSpec
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read Cert.PatchSpec
open Idealize.ShloMosaic Idealize.ShloMosaic.TcCoe Idealize.ShloMosaic.ValueIdx

variable {F : FTy → Type} [FloatOps F]

/-! ## The sample numbers -/

/-- The array of sample numbers, at `(p, t)`, is the word `p · 64 + t`: the column's entry `p` is the counter `p`
    times the constant 64, the row's entry `t` the counter `t`. -/
theorem offsets_apply (i : S7811x128.Idx) : val_main_v8 (F := F) i = startWord (i 0) (i 1) := by
  rw [val_main_v8_apply, val_main_v6_apply, val_main_v3_apply, val_main_v1_apply, val_main_v0_apply,
    val_main_v2_apply, val_main_c_apply, val_main_v7_apply, val_main_v5_apply, val_main_v4_apply]
  rfl

/-- The first gather's start index for `(p, t)`: the word, with 500000 added if it reads negative. -/
theorem start0_apply (p : Fin 7811) (t : Fin 128) :
    val_main_v14 (F := F) (takeIdx (ix2 p t))
      = Scalar.select (IntOp.cmpi .slt (startWord p t) 0#32) (IntOp.addi (startWord p t) 500000#32) (startWord p t) := by
  rw [val_main_v14_apply, val_main_v13_apply, val_main_v10_apply, val_main_v12_apply, val_main_v9_apply,
    val_main_c_0_apply, val_main_v11_apply, val_main_c_1_apply, offsets_apply]
  rfl

/-- The second gather's start index is computed again by the same operations. -/
theorem start1_apply (p : Fin 7811) (t : Fin 128) :
    val_main_v21 (F := F) (takeIdx (ix2 p t))
      = Scalar.select (IntOp.cmpi .slt (startWord p t) 0#32) (IntOp.addi (startWord p t) 500000#32) (startWord p t) := by
  rw [val_main_v21_apply, val_main_v20_apply, val_main_v17_apply, val_main_v19_apply, val_main_v16_apply,
    val_main_c_2_apply, val_main_v18_apply, val_main_c_3_apply, offsets_apply]
  rfl

/-! ## The gathers -/

/-- The printed gather is the "take" of a flat array at a `[7811, 128, 1]` array of start indices. -/
theorem gatherDims_eq : gather_S500000_S7811x128x1_S7811x128_n_0_n_n_0_2_1
    = takeDims 500000 7811 128 Facts₀.gather_S500000_S7811x128x1_S7811x128_n_0_n_n_0_2_1_wf := rfl

/-- The first signal gathered: entry `(p, t)` is its sample `64 p + t`. -/
theorem gathered0_apply (x0 : (⟨S500000, .f32⟩ : BufTy).Contents (Elt F)) (p : Fin 7811) (t : Fin 128) :
    val_main_v15 (F := F) x0 (ix2 p t) = x0 (ix1 (sample p t)) := by
  unfold val_main_v15
  rw [gatherDims_eq]
  refine (gather_take_apply (by decide) _ x0 (val_main_v14 (F := F)) (ix2 p t)).trans ?_
  refine congrArg x0 (congrArg ix1 (Fin.ext ?_))
  show min (val_main_v14 (F := F) (takeIdx (ix2 p t))).toInt.toNat (500000 - 1) = (sample p t).val
  rw [start0_apply]
  exact clamped_start p t

/-- The second signal gathered, likewise. -/
theorem gathered1_apply (x1 : (⟨S500000, .f32⟩ : BufTy).Contents (Elt F)) (p : Fin 7811) (t : Fin 128) :
    val_main_v22 (F := F) x1 (ix2 p t) = x1 (ix1 (sample p t)) := by
  unfold val_main_v22
  rw [gatherDims_eq]
  refine (gather_take_apply (by decide) _ x1 (val_main_v21 (F := F)) (ix2 p t)).trans ?_
  refine congrArg x1 (congrArg ix1 (Fin.ext ?_))
  show min (val_main_v21 (F := F) (takeIdx (ix2 p t))).toInt.toNat (500000 - 1) = (sample p t).val
  rw [start1_apply]
  exact clamped_start p t

/-! ## The join -/

/-- THE REFERENCE'S FIRST RESULT is the stacked patches: on the last axis coordinate 0 reads the first gathered
    array with a unit axis added, coordinate 1 the second. -/
theorem patches_eq (x0 x1 : (⟨S500000, .f32⟩ : BufTy).Contents (Elt F)) :
    val_main_v25 (F := F) x0 x1 = patches x0 x1 := by
  funext i
  obtain ⟨p, t, s, rfl⟩ : ∃ (p : Fin 7811) (t : Fin 128) (s : Fin 2), i = ix3 p t s := ⟨i 0, i 1, i 2, eq_ix3 i⟩
  unfold val_main_v25
  match s with
  | ⟨0, _⟩ =>
    refine (concatenate_pair_apply_left (2 : Fin 3) (val_main_v23 (F := F) x0) (val_main_v24 (F := F) x1)
      Facts₀.concatenates_S7811x128x1_S7811x128x1_S7811x128x2_d2 (ix3 p t (0 : Fin 2)) rfl (ix3 p t (0 : Fin 1))
      (fun b => match b with | ⟨0, _⟩ => rfl | ⟨1, _⟩ => rfl | ⟨2, _⟩ => rfl)).trans ?_
    rw [val_main_v23_apply]
    exact gathered0_apply x0 p t
  | ⟨1, _⟩ =>
    refine (concatenate_pair_apply_right (2 : Fin 3) (val_main_v23 (F := F) x0) (val_main_v24 (F := F) x1)
      Facts₀.concatenates_S7811x128x1_S7811x128x1_S7811x128x2_d2 (ix3 p t (1 : Fin 2)) rfl rfl (ix3 p t (0 : Fin 1))
      (fun b hb => match b, hb with | ⟨0, _⟩, _ => rfl | ⟨1, _⟩, _ => rfl | ⟨2, _⟩, hb => absurd rfl hb) rfl).trans ?_
    rw [val_main_v24_apply]
    exact gathered1_apply x1 p t

end Cert.ReferenceIdeal.RefValue

end
-- ==== Proof.RefRows.lean ====
/-
  The reference's second result is its 128 × 128 tile repeated along the leading axis: the tile is broadcast
  onto axes 1 and 2 of a `[7811, 128, 128]` array, so entry `(p, i, j)` is the tile's entry `(i, j)`.
-/
import proofs.«160759_j90082644066743_2_alg».proof.Proof.Gen.ReferenceIdeal.Read
import proofs.«160759_j90082644066743_2_alg».proof.Proof.PatchSpec
import Idealize.ShloMosaic.Lib.ValueIdx

noncomputable section

namespace Cert.ReferenceIdeal.RefValue

open Cert.ReferenceIdeal Cert.ReferenceIdeal.Gen Cert.ReferenceIdeal.Read Cert.PatchSpec
open Idealize.ShloMosaic Idealize.ShloMosaic.TcCoe Idealize.ShloMosaic.ValueIdx

variable {F : FTy → Type} [FloatOps F]

/-- THE REFERENCE'S SECOND RESULT is the rows of its tile (the banded, squashed weights: the stage before the
    broadcast), whatever the weights are. -/
theorem rows_eq (w : (⟨S128x128, .f32⟩ : BufTy).Contents (Elt F)) :
    val_main_v46 (F := F) w = rows (val_main_v45 (F := F) w) := by
  funext i
  rw [val_main_v46_apply]
  exact congrArg (val_main_v45 (F := F) w) (funext fun a => match a with | ⟨0, _⟩ => rfl | ⟨1, _⟩ => rfl)

end Cert.ReferenceIdeal.RefValue

end
-- ==== Proof.KerHost.lean ====
/-
  The kernel program's host side: what the two arrays that @main computes before the one region hold when the
  region is entered, as terms of the argument arrays.

  THE PATCHES (the first result; the region never touches it). A signal's first 499968 = 7812 · 64 samples are laid
  out as 7812 chunks of 64 (`chunks`: chunk `q`'s entry `r` is sample `64 q + r`); chunks `0 … 7810` are set
  beside chunks `1 … 7811` (`pairs`: row `p` is chunk `p` followed by chunk `p + 1`, 128 samples); each signal's
  rows get a last axis of extent 1 and the two signals are joined along it (`stacked`).

  THE TILE (the region's one input). The weights squashed by `1 / (1 + exp (−w))` and multiplied by the band mask,
  the mask being 1 where `0 < |i − j| ≤ 16` and 0 elsewhere (`tile`).
-/
import proofs.«160759_j90082644066743_2_alg».proof.Proof.Gen.KernelIdeal.Frame
import Idealize.ShloMosaic.Lib.StableHlo.Run

noncomputable section

namespace Cert.KernelIdeal.KerValue

open Cert.KernelIdeal Cert.KernelIdeal.Gen
open Idealize.ShloMosaic Idealize.ShloMosaic.TcCoe Idealize.SL.Sem Idealize.ShloMosaic.StableHlo

variable {F : FTy → Type} [FloatOps F]

/-! ## The terms -/

/-- The first 7812 · 64 samples of a signal as 7812 chunks of 64. -/
def chunks (x : (⟨S500000, .f32⟩ : BufTy).Contents (Elt F)) : (⟨S7812x64, .f32⟩ : BufTy).Contents (Elt F) :=
  shapeCast S7812x64 (extractStridedSlice S499968 ![0] x slices_S500000_S499968_0) shapeCasts_S499968_S7812x64

/-- Each chunk but the last followed by its successor: 7811 rows of 128 samples. -/
def pairs (x : (⟨S500000, .f32⟩ : BufTy).Contents (Elt F)) : (⟨S7811x128, .f32⟩ : BufTy).Contents (Elt F) :=
  concatenate S7811x128 1 [⟨S7811x64, extractStridedSlice S7811x64 ![0, 0] (chunks x) slices_S7812x64_S7811x64_0_0⟩,
    ⟨S7811x64, extractStridedSlice S7811x64 ![1, 0] (chunks x) slices_S7812x64_S7811x64_1_0⟩]
    concatenates_S7811x64_S7811x64_S7811x128_d1

/-- The two signals' rows joined along a new last axis. -/
def stacked (x0 x1 : (⟨S500000, .f32⟩ : BufTy).Contents (Elt F)) : (⟨S7811x128x2, .f32⟩ : BufTy).Contents (Elt F) :=
  concatenate S7811x128x2 2 [⟨S7811x128x1, broadcastInDim S7811x128x1 ![0, 1] bcast_S7811x128_S7811x128x1_0_1 (pairs x0)⟩,
    ⟨S7811x128x1, broadcastInDim S7811x128x1 ![0, 1] bcast_S7811x128_S7811x128x1_0_1 (pairs x1)⟩]
    concatenates_S7811x128x1_S7811x128x1_S7811x128x2_d2

/-- The banded, squashed weights. -/
def tile (w : (⟨S128x128, .f32⟩ : BufTy).Contents (Elt F)) : (⟨S128x128, .f32⟩ : BufTy).Contents (Elt F) :=
  mulf (Host.divf (broadcastInDim S128x128 ![] bcast_S_S128x128 (constant S_ .f32 0x3F800000#32)) (addf (broadcastInDim S128x128 ![] bcast_S_S128x128 (constant S_ .f32 0x3F800000#32)) (Host.exp (Host.negf w)))) (uitofp .f32 (andi (cmpi .sle (absi (subi (broadcastInDim S128x128 ![0, 1] bcast_S128x1_S128x128_0_1 (broadcastInDim S128x1 ![0] bcast_S128_S128x1_0 (iotaInDim S128 32 0))) (broadcastInDim S128x128 ![0, 1] bcast_S1x128_S128x128_0_1 (broadcastInDim S1x128 ![1] bcast_S128_S1x128_1 (iotaInDim S128 32 0))))) (broadcastInDim S128x128 ![] bcast_S_S128x128 (constantI S_ 32 16#32))) (cmpi .sgt (absi (subi (broadcastInDim S128x128 ![0, 1] bcast_S128x1_S128x128_0_1 (broadcastInDim S128x1 ![0] bcast_S128_S128x1_0 (iotaInDim S128 32 0))) (broadcastInDim S128x128 ![0, 1] bcast_S1x128_S128x128_0_1 (broadcastInDim S1x128 ![1] bcast_S128_S1x128_1 (iotaInDim S128 32 0))))) (broadcastInDim S128x128 ![] bcast_S_S128x128 (constantI S_ 32 0#32)))))

/-! ## The arrays as the region finds them -/

variable (m : (ℓ : Loc nD τ sig) → Buf (Elt F) ℓ)

set_option maxRecDepth 8192 in
/-- When the region is entered the first result's array already holds the stacked patches of the two signals. -/
theorem V_patches (c : Dev nD) :
    (V m c main_v12 : S7811x128x2.Idx → Elt F .f32)
      = stacked (m ((c : Thread nD τ).loc main_arg0)) (m ((c : Thread nD τ).loc main_arg1)) := by
  unfold stacked pairs chunks
  dsimp only [Gen.V, Gen.hostOps0]
  after_results
  first | done | rfl

set_option maxRecDepth 8192 in
/-- When the region is entered its input array holds the tile of the weights. -/
theorem V_tile (c : Dev nD) :
    (V m c main_v32 : S128x128.Idx → Elt F .f32) = tile (m ((c : Thread nD τ).loc main_arg2)) := by
  refine Eq.trans (b := ?X) ?h1 ?h2
  case h1 =>
    dsimp only [Gen.V, Gen.hostOps0]
    after_results
  case h2 => rfl

end Cert.KernelIdeal.KerValue

end
-- ==== Proof.KerPatches.lean ====
/-
  The kernel program's stacked patches, read at an index, are the patches of the specification.

  A chunk entry: chunk `q`'s entry `r` sits at row-major position `64 q + r` of the signal's first 499968 samples,
  so it is sample `64 q + r`. A row of pairs at position `t`: for `t < 64` it is chunk `p`'s entry `t`, sample
  `64 p + t`; for `t ≥ 64` it is chunk `p + 1`'s entry `t − 64`, sample `64 (p + 1) + (t − 64) = 64 p + t` again.
  This is where the patch length being twice the stride is used. The join along the last axis then picks the signal.
-/
import proofs.«160759_j90082644066743_2_alg».proof.Proof.KerHost
import proofs.«160759_j90082644066743_2_alg».proof.Proof.PatchSpec
import Idealize.ShloMosaic.Lib.ValueIdx
import Idealize.ShloMosaic.Lib.Pipeline.Value

noncomputable section

namespace Cert.KernelIdeal.KerValue

open Cert.KernelIdeal Cert.KernelIdeal.Gen Cert.PatchSpec
open Idealize.ShloMosaic Idealize.ShloMosaic.TcCoe Idealize.ShloMosaic.ValueIdx

variable {F : FTy → Type} [FloatOps F]

/-- Chunk `q`'s entry `r` is sample `64 q + r`. -/
theorem chunks_apply (x : (⟨S500000, .f32⟩ : BufTy).Contents (Elt F)) (q : Fin 7812) (r : Fin 64)
    (n : Fin 500000) (hn : n.val = 64 * q.val + r.val) : chunks x (ix2 q r) = x (ix1 n) := by
  have hq := q.isLt
  have hr := r.isLt
  unfold chunks
  refine (shapeCast_apply _ shapeCasts_S499968_S7812x64 (ix2 q r)
    (ix1 (⟨n.val, by omega⟩ : Fin 499968)) (by
      rw [Shape.rowMajor_val_one, Shape.rowMajor_val_two]
      show n.val = q.val * 64 + r.val
      omega)).trans ?_
  exact extractStridedSlice_apply ![0] x slices_S500000_S499968_0 _ (ix1 n)
    (fun a => match a with | ⟨0, _⟩ => by show n.val = 0 + n.val; omega)

/-- Row `p` of the pairs at position `t` is sample `64 p + t`, in either half. -/
theorem pairs_apply (x : (⟨S500000, .f32⟩ : BufTy).Contents (Elt F)) (p : Fin 7811) (t : Fin 128) :
    pairs x (ix2 p t) = x (ix1 (sample p t)) := by
  have hp := p.isLt
  have ht := t.isLt
  unfold pairs
  by_cases h : t.val < 64
  · -- the first half: chunk `p`, entry `t`
    refine (concatenate_pair_apply_left (t := S7811x128) (s₁ := S7811x64) (s₂ := S7811x64) (1 : Fin 2) _ _ concatenates_S7811x64_S7811x64_S7811x128_d1 (ix2 p t) rfl
      (ix2 p (⟨t.val, h⟩ : Fin 64))
      (fun b => match b with | ⟨0, _⟩ => rfl | ⟨1, _⟩ => rfl)).trans ?_
    refine (extractStridedSlice_apply ![0, 0] (chunks x) slices_S7812x64_S7811x64_0_0 _
      (ix2 (⟨p.val, by omega⟩ : Fin 7812) (⟨t.val, h⟩ : Fin 64))
      (fun a => match a with
        | ⟨0, _⟩ => by show p.val = 0 + p.val; omega
        | ⟨1, _⟩ => by show t.val = 0 + t.val; omega)).trans ?_
    exact chunks_apply x _ _ (sample p t) rfl
  · -- the second half: chunk `p + 1`, entry `t − 64`
    refine (concatenate_pair_apply_right (t := S7811x128) (s₁ := S7811x64) (s₂ := S7811x64) (1 : Fin 2) _ _ concatenates_S7811x64_S7811x64_S7811x128_d1 (ix2 p t) rfl rfl
      (ix2 p (⟨t.val - 64, by omega⟩ : Fin 64))
      (fun b hb => match b, hb with | ⟨0, _⟩, _ => rfl | ⟨1, _⟩, hb => absurd rfl hb)
      (by show t.val - 64 + 64 = t.val; omega)).trans ?_
    refine (extractStridedSlice_apply ![1, 0] (chunks x) slices_S7812x64_S7811x64_1_0 _
      (ix2 (⟨p.val + 1, by omega⟩ : Fin 7812) (⟨t.val - 64, by omega⟩ : Fin 64))
      (fun a => match a with
        | ⟨0, _⟩ => by show p.val + 1 = 1 + p.val; omega
        | ⟨1, _⟩ => by show t.val - 64 = 0 + (t.val - 64); omega)).trans ?_
    exact chunks_apply x _ _ (sample p t) (by show 64 * p.val + t.val = 64 * (p.val + 1) + (t.val - 64); omega)

/-- THE KERNEL PROGRAM'S FIRST RESULT is the stacked patches of the specification. -/
theorem stacked_eq (x0 x1 : (⟨S500000, .f32⟩ : BufTy).Contents (Elt F)) : stacked x0 x1 = patches x0 x1 := by
  funext i
  obtain ⟨p, t, s, rfl⟩ : ∃ (p : Fin 7811) (t : Fin 128) (s : Fin 2), i = ix3 p t s := ⟨i 0, i 1, i 2, eq_ix3 i⟩
  unfold stacked
  match s with
  | ⟨0, _⟩ =>
    refine (concatenate_pair_apply_left (t := S7811x128x2) (s₁ := S7811x128x1) (s₂ := S7811x128x1) (2 : Fin 3) _ _ concatenates_S7811x128x1_S7811x128x1_S7811x128x2_d2
      (ix3 p t (0 : Fin 2)) rfl (ix3 p t (0 : Fin 1))
      (fun b => match b with | ⟨0, _⟩ => rfl | ⟨1, _⟩ => rfl | ⟨2, _⟩ => rfl)).trans ?_
    refine (broadcastInDim_apply _ bcast_S7811x128_S7811x128x1_0_1 (pairs x0) _ (ix2 p t) (fun a => match a with
      | ⟨0, _⟩ => by show p.val = if (7811 : Nat) = 1 then 0 else p.val; rw [if_neg (by decide)]
      | ⟨1, _⟩ => by show t.val = if (128 : Nat) = 1 then 0 else t.val; rw [if_neg (by decide)])).trans ?_
    exact pairs_apply x0 p t
  | ⟨1, _⟩ =>
    refine (concatenate_pair_apply_right (t := S7811x128x2) (s₁ := S7811x128x1) (s₂ := S7811x128x1) (2 : Fin 3) _ _ concatenates_S7811x128x1_S7811x128x1_S7811x128x2_d2
      (ix3 p t (1 : Fin 2)) rfl rfl (ix3 p t (0 : Fin 1))
      (fun b hb => match b, hb with | ⟨0, _⟩, _ => rfl | ⟨1, _⟩, _ => rfl | ⟨2, _⟩, hb => absurd rfl hb) rfl).trans ?_
    refine (broadcastInDim_apply _ bcast_S7811x128_S7811x128x1_0_1 (pairs x1) _ (ix2 p t) (fun a => match a with
      | ⟨0, _⟩ => by show p.val = if (7811 : Nat) = 1 then 0 else p.val; rw [if_neg (by decide)]
      | ⟨1, _⟩ => by show t.val = if (128 : Nat) = 1 then 0 else t.val; rw [if_neg (by decide)])).trans ?_
    exact pairs_apply x1 p t

end Cert.KernelIdeal.KerValue

end
-- ==== Proof.KerRows.lean ====
/-
  The region's output array after the run is its input tile repeated along the leading axis.

  The region runs over 31 grid points. At every point its body loads the whole 128 × 128 input block (the input
  window's index map is constant, so the block is the whole input array at every point) and stores it into every one
  of the 256 rows of the output's block: block entry `(r, i, j)` is the tile's `(i, j)`. Point `t`'s block is rows
  `256 t … 256 t + 255` of the output array, except that the last one (`t = 30`) overhangs the array, which has
  `7811 = 30 · 256 + 131` rows: its write-back is cut to the 131 rows inside. Every point writes back, and every row
  `p` of the array lies in the block of point `p / 256` (inside the cut for the last point, since `p < 7811`). So the
  array ends holding the tile in every row — the same function of the index whichever block wrote it.
-/
import proofs.«160759_j90082644066743_2_alg».proof.Proof.Gen.KernelIdeal.Value
import proofs.«160759_j90082644066743_2_alg».proof.Proof.PatchSpec
import Idealize.ShloMosaic.Lib.ValueIdx
import Idealize.ShloMosaic.Lib.Pipeline.Value

noncomputable section

namespace Cert.KernelIdeal.KerValue

open Cert.KernelIdeal Cert.KernelIdeal.Gen Cert.PatchSpec
open Idealize.ShloMosaic Idealize.ShloMosaic.TcCoe Idealize.ShloMosaic.ValueIdx Idealize.SL.Sem
open Idealize.ShloMosaic.Pipeline (Dat)

variable {F : FTy → Type} [FloatOps F]

theorem zero_offsets : (![0, 0] : Fin 2 → Nat) = fun _ => 0 := funext fun a => by fin_cases a <;> rfl

/-- What the body leaves in the output's staging buffer, from ANY input block `X`: entry `(r, i, j)` is
    `X (i, j)` (the whole-block load reads `X`; the store's payload repeats it along the block's leading axis). -/
theorem body_apply (X : Vec F S128x128 .f32) (y : S256x128x128.Idx) : out0_1 X y = X (ix2 (y 1) (y 2)) := by
  unfold out0_1
  rw [Cert.KernelIdeal.Value.canon1_eq]
  show View.ld X r0_0 (Cert.KernelIdeal.Value.ix1_0 y) = X (ix2 (y 1) (y 2))
  rw [View.ld_unit_zero (S := S128x128) zero_offsets]
  exact congrArg X (funext fun a => match a with | ⟨0, _⟩ => rfl | ⟨1, _⟩ => rfl)

/-- The printed index maps and cuts, decided over the 31 points: the input's block index is `(0, 0)` everywhere;
    the output's is `(t, 0, 0)`; the output's block is cut to 131 rows at the last point and whole elsewhere. -/
theorem grid_facts : ∀ t : Fin cfg0.N,
    win0_0.index t (0 : Fin 2) = 0 ∧ win0_0.index t (1 : Fin 2) = 0
    ∧ win0_1.index t (0 : Fin 3) = t.val ∧ win0_1.index t (1 : Fin 3) = 0 ∧ win0_1.index t (2 : Fin 3) = 0
    ∧ win0_1.xsize (grid0.coords t) (0 : Fin 3) = (if t.val = 30 then 131 else 256)
    ∧ win0_1.xsize (grid0.coords t) (1 : Fin 3) = 128 ∧ win0_1.xsize (grid0.coords t) (2 : Fin 3) = 128 :=
  (by decide +kernel : ∀ t : Fin grid0.N, _)

variable (m : (ℓ : Loc nD τ sig) → Buf (Elt F) ℓ)

/-- WHAT POINT `t` WRITES BACK is its (cut) block of the rows of the tile the region found in its input array. -/
theorem flushed_rows (c : Dev nD) (t : Fin cfg0.N) :
    (dats m 0 c).flushed 1 t = ((cfg0.win 1).blk t).view.read (Elt F) (rows (V m c main_v32)) := by
  rw [Cert.KernelIdeal.Value.flushed1]
  obtain ⟨e0, e1, e2, e3, e4, e5, e6, e7⟩ := grid_facts t
  funext j
  show out0_1 (iblk m c 0 t) ((cfg0.win 1).xinj (grid0.coords t) j) = rows (V m c main_v32) (((cfg0.win 1).blk t).view.emb j)
  refine (body_apply _ _).trans ?_
  show V m c main_v32 (((cfg0.win 0).blk t).view.emb (ix2 (((cfg0.win 1).xinj (grid0.coords t) j) 1) (((cfg0.win 1).xinj (grid0.coords t) j) 2)))
    = V m c main_v32 (ix2 ((((cfg0.win 1).blk t).view.emb j) 1) ((((cfg0.win 1).blk t).view.emb j) 2))
  refine congrArg (V m c main_v32) (funext fun a => Fin.ext ?_)
  match a with
  | ⟨0, _⟩ =>
    show win0_0.index t (0 : Fin 2) * 128 + 1 * (j 1).val = win0_1.index t (1 : Fin 3) * 128 + 1 * (j 1).val
    rw [e0, e3]
  | ⟨1, _⟩ =>
    show win0_0.index t (1 : Fin 2) * 128 + 1 * (j 2).val = win0_1.index t (2 : Fin 3) * 128 + 1 * (j 2).val
    rw [e1, e4]

/-- An index of the output array is in point `t`'s (cut) block iff each coordinate is in the block's range. -/
theorem mem_block (t : Fin cfg0.N) (i : S7811x128x128.Idx) :
    i ∈ ((cfg0.win 1).blk t).view.set ↔ ∀ a : Fin 3, win0_1.index t a * S256x128x128.size a ≤ (i a).val
      ∧ (i a).val < win0_1.index t a * S256x128x128.size a + win0_1.xsize (grid0.coords t) a := by
  show i ∈ ((View.whole main_v33).slice (win0_1.rect t)).set ↔ _
  rw [View.set_slice_whole, Rect.mem_set_unit]
  exact Iff.rfl

/-- Every index of the output array is in the block of a point that writes back: row `p` in that of point `p / 256`. -/
theorem covered (i : S7811x128x128.Idx) :
    ∃ t : Fin cfg0.N, (cfg0.win 1).flush t = true ∧ i ∈ ((cfg0.win 1).blk t).view.set := by
  have h0 : (i 0).val < 7811 := (i 0).isLt
  have h1 : (i 1).val < 128 := (i 1).isLt
  have h2 : (i 2).val < 128 := (i 2).isLt
  have hN : (i 0).val / 256 < cfg0.N := by show _ < grid0.N; rw [N_0]; omega
  refine ⟨⟨(i 0).val / 256, hN⟩, flush0_1 _, ?_⟩
  obtain ⟨-, -, e2, e3, e4, e5, e6, e7⟩ := grid_facts ⟨(i 0).val / 256, hN⟩
  rw [mem_block]
  intro a
  match a with
  | ⟨0, _⟩ =>
    show win0_1.index ⟨(i 0).val / 256, hN⟩ (0 : Fin 3) * 256 ≤ (i 0).val
      ∧ (i 0).val < win0_1.index ⟨(i 0).val / 256, hN⟩ (0 : Fin 3) * 256 + win0_1.xsize (grid0.coords ⟨(i 0).val / 256, hN⟩) (0 : Fin 3)
    rw [e2, e5]
    show (i 0).val / 256 * 256 ≤ (i 0).val ∧ (i 0).val < (i 0).val / 256 * 256 + (if (i 0).val / 256 = 30 then 131 else 256)
    split <;> omega
  | ⟨1, _⟩ =>
    show win0_1.index ⟨(i 0).val / 256, hN⟩ (1 : Fin 3) * 128 ≤ (i 1).val
      ∧ (i 1).val < win0_1.index ⟨(i 0).val / 256, hN⟩ (1 : Fin 3) * 128 + win0_1.xsize (grid0.coords ⟨(i 0).val / 256, hN⟩) (1 : Fin 3)
    rw [e3, e6]; omega
  | ⟨2, _⟩ =>
    show win0_1.index ⟨(i 0).val / 256, hN⟩ (2 : Fin 3) * 128 ≤ (i 2).val
      ∧ (i 2).val < win0_1.index ⟨(i 0).val / 256, hN⟩ (2 : Fin 3) * 128 + win0_1.xsize (grid0.coords ⟨(i 0).val / 256, hN⟩) (2 : Fin 3)
    rw [e4, e7]; omega

/-- THE OUTPUT ARRAY AFTER THE RUN: the rows of the tile the region found in its input array. -/
theorem final_rows (c : Dev nD) : (dats m 0 c).arrAt 1 cfg0.N = rows (V m c main_v32) :=
  (dats m 0 c).arrAt_eq_of_cover 1 (rows (V m c main_v32)) (fun t _ => flushed_rows m c t) covered

end Cert.KernelIdeal.KerValue

end
-- ==== Proof.KerRun.lean ====
/-
  The kernel program's run, with both results named.

  The generated frame run ends with every array of the region at what the blocks wrote and every other buffer as
  the region found it. The first result is such an "other buffer": the host operations before the region wrote the
  stacked patches there and the region never touches it. The second result is the region's output array: the rows
  of the tile that the host operations left in the region's input array.
-/
import proofs.«160759_j90082644066743_2_alg».proof.Proof.Gen.KernelIdeal.Value
import proofs.«160759_j90082644066743_2_alg».proof.Proof.KerPatches
import proofs.«160759_j90082644066743_2_alg».proof.Proof.KerRows

noncomputable section

namespace Cert.KernelIdeal.KerValue

open Cert.KernelIdeal Cert.KernelIdeal.Gen Cert.PatchSpec
open Idealize.ShloMosaic Idealize.ShloMosaic.TcCoe Idealize.SL.Sem

variable {F : FTy → Type} [FloatOps F]
variable (m : (ℓ : Loc nD τ sig) → Buf (Elt F) ℓ) (ρ : Dev nD → PrngReg)

/-- Every weakly fair execution of the kernel program terminates with the first result at the stacked patches of
    the two signals, the second at the rows of the tile of the weights, and the arguments unchanged. -/
theorem run : θ_run defs (onTc (τ := τ) (main (F := F))) ⟨m, fun _ => 0, ρ⟩ fun r => ∀ c : Dev nD,
      r.2.mem ((c : Thread nD τ).loc main_v12)
        = patches (m ((c : Thread nD τ).loc main_arg0)) (m ((c : Thread nD τ).loc main_arg1))
      ∧ r.2.mem ((c : Thread nD τ).loc main_v33) = rows (tile (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨
      ((h c).2 main_v12 (Pipeline.mem_restRefs_of main_v12 (by decide) (by decide))).trans
        ((V_patches m c).trans (stacked_eq _ _)),
      (Cert.KernelIdeal.Value.post1 m r h c).trans ((final_rows m c).trans (congrArg rows (V_tile m c))),
      Cert.KernelIdeal.Value.kept_main_arg0 m r h c,
      Cert.KernelIdeal.Value.kept_main_arg1 m r h c,
      Cert.KernelIdeal.Value.kept_main_arg2 m r h c⟩)
    (run_main m ρ)

end Cert.KernelIdeal.KerValue

end
-- ==== Proof.TileSame.lean ====
/-
  The two programs compute the 128 × 128 tile by the same operations on the same literals: the weights negated,
  exponentiated, one added, the reciprocal taken (`1 / (1 + exp (−w))`, both ones the word `0x3F800000`), times the
  band mask `0 < |i − j| ≤ 16` converted to a float, the row and column counters built and compared in the same order
  against the same integer constants 16 and 0. The two terms differ only in which program's copy of each shape and
  shape fact they name, so they are one function of the weights, and no law of arithmetic is needed to join them.
-/
import proofs.«160759_j90082644066743_2_alg».proof.Proof.KerHost
import proofs.«160759_j90082644066743_2_alg».proof.Proof.Gen.ReferenceIdeal.Read

noncomputable section

namespace Cert.KernelIdeal.KerValue

open Idealize.ShloMosaic

variable {F : FTy → Type} [FloatOps F]

/-- THE KERNEL PROGRAM'S TILE IS THE REFERENCE'S, for any weights (also infinite ones: nothing is cancelled or
    distributed). -/
theorem tile_eq_reference (w : (⟨2, ![128, 128]⟩ : Shape).Idx → Elt F .f32) :
    tile (F := F) w = Cert.ReferenceIdeal.Read.val_main_v45 (F := F) w := rfl

end Cert.KernelIdeal.KerValue

end
-- ==== Proof.lean ====
/-
  Equivalence of a windowed-patch kernel with its reference, over the extended reals.

  THE TWO PROGRAMS take two signals of 500000 samples and a 128 × 128 array of weights, and return
  (1) the patches of the two signals — 7811 windows of 128 consecutive samples, a new window every 64 samples, the two
      signals stacked on a last axis: entry `(p, t, s)` is sample `64 p + t` of signal `s` — and
  (2) a banded adjacency tile repeated once per patch: entry `(p, i, j)` is `1 / (1 + exp (−w (i, j)))` where
      `0 < |i − j| ≤ 16` and that number times zero elsewhere.

  The reference gathers each signal at the computed sample numbers and broadcasts the tile. The kernel program cuts
  each signal into chunks of 64 and sets every chunk beside its successor (the window length is twice the stride), and
  hands the tile to a kernel that stores it into every row of the output, 256 rows per grid point over 31 points, the
  last block cut at the array's end (`7811 = 30 · 256 + 131`).

  WHY THEY AGREE. (1) is a statement about which sample lands where: on both sides entry `(p, t, s)` is sample
  `64 p + t` of signal `s` (`Cert.PatchSpec.patches`); for the reference this needs that the 32-bit arithmetic for
  `64 p + t` neither wraps nor reads negative and that the gather's clamp is idle (`64 p + t ≤ 499967`); for the kernel
  program that `64 (p + 1) + (t − 64) = 64 p + t`. (2): the two programs compute the tile by the same operations on the
  same literals, so it is one function of the weights on both sides, and each spreads it over the leading axis
  (`Cert.PatchSpec.rows`). No law of arithmetic on the extended reals is used, so the finiteness of the inputs is
  never opened: the results agree for infinite inputs too.

  The three frames are the generated ones (the reference's is its generated run with the results dropped). The
  idealized kernel program is the printed one's own text read over the extended reals — no operation was rewritten —
  so the claim relating the two is `True`.
-/
import proofs.«160759_j90082644066743_2_alg».proof.Defs
import proofs.«160759_j90082644066743_2_alg».proof.Proof.Gen.Kernel
import proofs.«160759_j90082644066743_2_alg».proof.Proof.Gen.Kernel.Skeleton
import proofs.«160759_j90082644066743_2_alg».proof.Proof.Gen.Kernel.Launch
import proofs.«160759_j90082644066743_2_alg».proof.Proof.Gen.Kernel.Points
import proofs.«160759_j90082644066743_2_alg».proof.Proof.Gen.Kernel.Frame
import proofs.«160759_j90082644066743_2_alg».proof.Proof.Gen.KernelIdeal
import proofs.«160759_j90082644066743_2_alg».proof.Proof.Gen.KernelIdeal.Skeleton
import proofs.«160759_j90082644066743_2_alg».proof.Proof.Gen.KernelIdeal.Launch
import proofs.«160759_j90082644066743_2_alg».proof.Proof.Gen.KernelIdeal.Points
import proofs.«160759_j90082644066743_2_alg».proof.Proof.Gen.KernelIdeal.Frame
import proofs.«160759_j90082644066743_2_alg».proof.Proof.Gen.ReferenceIdeal
import proofs.«160759_j90082644066743_2_alg».proof.Proof.Gen.KernelIdeal.Value
import proofs.«160759_j90082644066743_2_alg».proof.Proof.Gen.ReferenceIdeal.Run
import proofs.«160759_j90082644066743_2_alg».proof.Proof.Gen.ReferenceIdeal.Read
import proofs.«160759_j90082644066743_2_alg».proof.Proof.Gen.Pre_finite_inputs
import proofs.«160759_j90082644066743_2_alg».proof.Proof.PatchSpec
import proofs.«160759_j90082644066743_2_alg».proof.Proof.RefPatches
import proofs.«160759_j90082644066743_2_alg».proof.Proof.RefRows
import proofs.«160759_j90082644066743_2_alg».proof.Proof.KerRun
import proofs.«160759_j90082644066743_2_alg».proof.Proof.TileSame
import Idealize.ShloMosaic.Adequacy
import Idealize.ShloMosaic.Init

noncomputable section

namespace Cert.Proof

open Idealize.ShloMosaic Idealize.SL.Sem Cert.PatchSpec

/-- The kernel program as printed runs and leaves its arguments alone: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference has no kernel: its frame is its generated run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Reading the floats as extended reals changed no operation of the program's text: nothing to preserve. -/
theorem preserves : Cert.preserves_Kernel_KernelIdeal := trivial

/-- From memories that agree on the three arguments, both programs end with the first result at the stacked patches
    of the two signals and the second at the rows of the tile of the weights. -/
theorem algebraic : Cert.algebraic_KernelIdeal_ReferenceIdeal := by
  intro m ρ m' ρ' _ hagree
  refine ⟨_, _, Cert.KernelIdeal.KerValue.run (F := Ideal) m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · -- the patches: the reference's gathers and join, read at an index
    rw [(hagree c).1, (hagree c).2.1]
    exact (Cert.ReferenceIdeal.Read.val_main_v25_eq _ _).trans (Cert.ReferenceIdeal.RefValue.patches_eq _ _)
  · -- the rows: the reference's tile is the kernel program's
    rw [(hagree c).2.2]
    exact (Cert.ReferenceIdeal.Read.val_main_v46_eq _).trans
      ((Cert.ReferenceIdeal.RefValue.rows_eq _).trans
        (congrArg rows (Cert.KernelIdeal.KerValue.tile_eq_reference _).symm))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
